-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128x128 .f32) (main_arg3 : FVec F S128 .f32) (main_arg4 : FVec F S128x64 .f32) (main_arg5 : FVec F S128x64 .f32) (main_arg6 : FVec F S64 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .i32⟩
  | .hbm, ⟨13, _⟩ => ⟨S1700000, .i32⟩
  | .hbm, ⟨14, _⟩ => ⟨S1700000, .i1⟩
  | .hbm, ⟨15, _⟩ => ⟨S_, .i32⟩
  | .hbm, ⟨16, _⟩ => ⟨S1700000, .i32⟩
  | .hbm, ⟨17, _⟩ => ⟨S1700000, .i32⟩
  | .hbm, ⟨18, _⟩ => ⟨S1700000, .i32⟩
  | .hbm, ⟨19, _⟩ => ⟨S1700000x1, .i32⟩
  | .hbm, ⟨20, _⟩ => ⟨S1700000x128, .f32⟩
  | .hbm, ⟨21, _⟩ => ⟨S_, .f32⟩
  | .hbm, ⟨22, _⟩ => ⟨S100000x128, .f32⟩
  | .hbm, ⟨23, _⟩ => ⟨S1700000x1, .i32⟩
  | .hbm, ⟨24, _⟩ => ⟨S100000x128, .f32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S_, .f32⟩
  | .hbm, ⟨49, _⟩ => ⟨S100000x128, .f32⟩
  | .hbm, ⟨50, _⟩ => ⟨S1700000x1, .i32⟩
  | .hbm, ⟨51, _⟩ => ⟨S100000x128, .f32⟩
  | .hbm, ⟨52, _⟩ => ⟨S_, .f32⟩
  | .hbm, ⟨53, _⟩ => ⟨S1700000, .f32⟩
  | .hbm, ⟨54, _⟩ => ⟨S_, .f32⟩
  | .hbm, ⟨55, _⟩ => ⟨S100000, .f32⟩
  | .hbm, ⟨56, _⟩ => ⟨S1700000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x64, .f32⟩
  | .hbm, ⟨65, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .i32⟩
  | .hbm, ⟨13, _⟩ => ⟨S1700000, .i32⟩
  | .hbm, ⟨14, _⟩ => ⟨S1700000, .i1⟩
  | .hbm, ⟨15, _⟩ => ⟨S_, .i32⟩
  | .hbm, ⟨16, _⟩ => ⟨S1700000, .i32⟩
  | .hbm, ⟨17, _⟩ => ⟨S1700000, .i32⟩
  | .hbm, ⟨18, _⟩ => ⟨S1700000, .i32⟩
  | .hbm, ⟨19, _⟩ => ⟨S1700000x1, .i32⟩
  | .hbm, ⟨20, _⟩ => ⟨S1700000x128, .f32⟩
  | .hbm, ⟨21, _⟩ => ⟨S_, .f32⟩
  | .hbm, ⟨22, _⟩ => ⟨S100000x128, .f32⟩
  | .hbm, ⟨23, _⟩ => ⟨S1700000x1, .i32⟩
  | .hbm, ⟨24, _⟩ => ⟨S100000x128, .f32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S_, .f32⟩
  | .hbm, ⟨60, _⟩ => ⟨S1700000, .f32⟩
  | .hbm, ⟨61, _⟩ => ⟨S_, .f32⟩
  | .hbm, ⟨62, _⟩ => ⟨S100000, .f32⟩
  | .hbm, ⟨63, _⟩ => ⟨S1700000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.Sage.lean ====
/-
  One mean-aggregation graph layer, entry by entry.

  A layer takes the node features `x` (one row per node), the neighbourhood means `hn` of those rows, two weight
  matrices and a bias, and returns, at node `p` and output feature `q`,

      (sum over k of x (p, k) * ws (k, q)  +  sum over k of hn (p, k) * wn (k, q))  +  b q.

  The first layer clamps this at zero from below; the second returns it as it is. Both are stated here over the
  extended reals, as functions of whole arrays, with the grouping of the two sums and the bias exactly as written
  above: no law of arithmetic is used to compare two programs that both compute it in this grouping.
-/
import Idealize.ShloMosaic.PureOps.Ideal.Laws
import Idealize.ShloMosaic.Lib.ValueIdx

noncomputable section

namespace Cert.Sage

open Idealize.ShloMosaic Idealize.ShloMosaic.ValueIdx

/-- The affine part of a layer at node `p`, output feature `q`: the row of `x` against column `q` of `ws`, plus the row
    of `hn` against column `q` of `wn`, plus the bias at `q`. -/
def dense {N K O : ℕ} (x hn : (⟨2, ![N, K]⟩ : Shape).Idx → EReal) (ws wn : (⟨2, ![K, O]⟩ : Shape).Idx → EReal)
    (b : Fin O → EReal) (p : Fin N) (q : Fin O) : EReal :=
  (∑ k : Fin K, x (ix2 p k) * ws (ix2 k q) + ∑ k : Fin K, hn (ix2 p k) * wn (ix2 k q)) + b q

/-- The hidden layer as a whole array: the affine part clamped below at the value of the zero word. -/
def hidden {N K O : ℕ} (x hn : (⟨2, ![N, K]⟩ : Shape).Idx → EReal) (ws wn : (⟨2, ![K, O]⟩ : Shape).Idx → EReal)
    (b : Fin O → EReal) : (⟨2, ![N, O]⟩ : Shape).Idx → EReal :=
  fun i => max (dense x hn ws wn b (i 0) (i 1)) (Ideal.ofBits .f32 0x00000000#32)

/-- The output layer as a whole array: the affine part itself. -/
def output {N K O : ℕ} (x hn : (⟨2, ![N, K]⟩ : Shape).Idx → EReal) (ws wn : (⟨2, ![K, O]⟩ : Shape).Idx → EReal)
    (b : Fin O → EReal) : (⟨2, ![N, O]⟩ : Shape).Idx → EReal :=
  fun i => dense x hn ws wn b (i 0) (i 1)

theorem hidden_ix2 {N K O : ℕ} (x hn : (⟨2, ![N, K]⟩ : Shape).Idx → EReal) (ws wn : (⟨2, ![K, O]⟩ : Shape).Idx → EReal)
    (b : Fin O → EReal) (p : Fin N) (q : Fin O) :
    hidden x hn ws wn b (ix2 p q) = max (dense x hn ws wn b p q) (Ideal.ofBits .f32 0x00000000#32) := rfl

theorem output_ix2 {N K O : ℕ} (x hn : (⟨2, ![N, K]⟩ : Shape).Idx → EReal) (ws wn : (⟨2, ![K, O]⟩ : Shape).Idx → EReal)
    (b : Fin O → EReal) (p : Fin N) (q : Fin O) :
    output x hn ws wn b (ix2 p q) = dense x hn ws wn b p q := rfl

end Cert.Sage

end
-- ==== Proof.Payload.lean ====
/-
  What one call of the layer kernel stores, entry by entry.

  The body loads a block of 5000 feature rows, the same rows of the neighbourhood means, both weight matrices whole
  and the bias as a one-row matrix; it narrows the four matrix operands to a shorter float format (the identity on
  extended reals), multiplies each row block by its weights into a zero accumulator, adds the two products, adds the
  bias row to every row, and (first layer only) clamps at zero. Read at row `p` of the block and column `q` this is
  the layer's affine part of the loaded blocks at (p, q): each matrix product into zero is the plain sum over the
  contracted axis, the shape casts are casts of a shape to itself, and the broadcast of the one bias row reads that
  row at `q`.
-/
import proofs.«174485_j15496242004108_1_alg».proof.Proof.Gen.KernelIdeal.Skeleton
import proofs.«174485_j15496242004108_1_alg».proof.Proof.LibMatmul
import proofs.«174485_j15496242004108_1_alg».proof.Proof.Sage
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-! ## The two dimension records: (row, contraction) on the left, (contraction, column) on the right -/

abbrev D1 := dot_S5000x128_S128x128_S5000x128_1_0_0_1_n_n
abbrev D2 := dot_S5000x128_S128x64_S5000x64_1_0_0_1_n_n

theorem D1_l0 (i : S5000x128.Idx) (q : D1.contr.Idx) : (D1.lhsIdx i q (0 : Fin 2)).val = (i (0 : Fin 2)).val := by
  unfold DotDims.lhsIdx
  rw [dif_neg (show ¬(0 : Fin S5000x128.rank) ∈ D1.lhsBatch by decide), dif_pos (show (0 : Fin S5000x128.rank) ∈ D1.lhsNonContracting by decide)]
  rfl
theorem D1_l1 (i : S5000x128.Idx) (q : D1.contr.Idx) : (D1.lhsIdx i q (1 : Fin 2)).val = (q ⟨0, by decide⟩).val :=
  D1.lhsIdx_val_of_single rfl i q
theorem D1_r0 (i : S5000x128.Idx) (q : D1.contr.Idx) : (D1.rhsIdx i q (0 : Fin 2)).val = (q ⟨0, by decide⟩).val :=
  D1.rhsIdx_val_of_single rfl i q
theorem D1_r1 (i : S5000x128.Idx) (q : D1.contr.Idx) : (D1.rhsIdx i q (1 : Fin 2)).val = (i (1 : Fin 2)).val := by
  unfold DotDims.rhsIdx
  rw [dif_neg (show ¬(1 : Fin S128x128.rank) ∈ D1.rhsBatch by decide), dif_pos (show (1 : Fin S128x128.rank) ∈ D1.rhsNonContracting by decide)]
  rfl

theorem D2_l0 (i : S5000x64.Idx) (q : D2.contr.Idx) : (D2.lhsIdx i q (0 : Fin 2)).val = (i (0 : Fin 2)).val := by
  unfold DotDims.lhsIdx
  rw [dif_neg (show ¬(0 : Fin S5000x128.rank) ∈ D2.lhsBatch by decide), dif_pos (show (0 : Fin S5000x128.rank) ∈ D2.lhsNonContracting by decide)]
  rfl
theorem D2_l1 (i : S5000x64.Idx) (q : D2.contr.Idx) : (D2.lhsIdx i q (1 : Fin 2)).val = (q ⟨0, by decide⟩).val :=
  D2.lhsIdx_val_of_single rfl i q
theorem D2_r0 (i : S5000x64.Idx) (q : D2.contr.Idx) : (D2.rhsIdx i q (0 : Fin 2)).val = (q ⟨0, by decide⟩).val :=
  D2.rhsIdx_val_of_single rfl i q
theorem D2_r1 (i : S5000x64.Idx) (q : D2.contr.Idx) : (D2.rhsIdx i q (1 : Fin 2)).val = (i (1 : Fin 2)).val := by
  unfold DotDims.rhsIdx
  rw [dif_neg (show ¬(1 : Fin S128x64.rank) ∈ D2.rhsBatch by decide), dif_pos (show (1 : Fin S128x64.rank) ∈ D2.rhsNonContracting by decide)]
  rfl

/-! ## The stored values at an entry -/

/-- First layer: entry (p, q) of the stored block is the clamped affine part of the loaded blocks, the bias read
    from the one row of its block. -/
theorem hidden_block (x hn : Vec Ideal S5000x128 .f32) (ws wn : Vec Ideal S128x128 .f32) (b : Vec Ideal S1x128 .f32)
    (p : Fin 5000) (q : Fin 128) :
    k0_pay1 (F := Ideal) x hn ws wn b (ix2 p q)
      = max (Cert.Sage.dense x hn ws wn (fun q => b (ix2 (0 : Fin 1) q)) p q) (Ideal.ofBits .f32 0x00000000#32) := by
  unfold k0_pay1 Cert.Sage.dense
  dsimp only [matmul]
  rw [maximumf_apply, addf_apply, addf_apply, shapeCast_self, shapeCast_self]
  refine congrArg₂ max (congrArg₂ (· + ·) (congrArg₂ (· + ·) ?_ ?_) ?_) rfl
  · exact Cert.LibMatmul.matmul_zero_ix2 D1 rfl rfl D1_l0 D1_l1 D1_r0 D1_r1 none _ _ p q
  · exact Cert.LibMatmul.matmul_zero_ix2 D1 rfl rfl D1_l0 D1_l1 D1_r0 D1_r1 none _ _ p q
  · exact broadcastTo_1b_ab_apply b broadcasts_S1x128_S5000x128 p q

/-- Second layer: entry (p, q) of the stored block is the affine part of the loaded blocks. -/
theorem output_block (x hn : Vec Ideal S5000x128 .f32) (ws wn : Vec Ideal S128x64 .f32) (b : Vec Ideal S1x64 .f32)
    (p : Fin 5000) (q : Fin 64) :
    k1_pay1 (F := Ideal) x hn ws wn b (ix2 p q)
      = Cert.Sage.dense x hn ws wn (fun q => b (ix2 (0 : Fin 1) q)) p q := by
  unfold k1_pay1 Cert.Sage.dense
  dsimp only [matmul]
  rw [addf_apply, addf_apply, shapeCast_self, shapeCast_self, shapeCast_self]
  refine congrArg₂ (· + ·) (congrArg₂ (· + ·) ?_ ?_) ?_
  · exact Cert.LibMatmul.matmul_zero_ix2 D2 rfl rfl D2_l0 D2_l1 D2_r0 D2_r1 none _ _ p q
  · exact Cert.LibMatmul.matmul_zero_ix2 D2 rfl rfl D2_l0 D2_l1 D2_r0 D2_r1 none _ _ p q
  · exact broadcastTo_1b_ab_apply b broadcasts_S1x64_S5000x64 p q

/-! ## A stored entry against whole arrays

The loaded blocks are pieces of whole arrays: row `p` of a row block is row `i 0` of the array, column `q` of a
weight or bias block is column `i 1`. Stated over variables, with the pieces' relations as hypotheses. -/

/-- First layer: if the loaded blocks are the rows and columns of whole arrays that entry `i` of the result depends
    on, the stored entry (p, q) is the hidden layer of the whole arrays at `i`. -/
theorem hidden_of_blocks (X HN : S100000x128.Idx → EReal) (WS WN : S128x128.Idx → EReal) (B : S1x128.Idx → EReal)
    (x hn : Vec Ideal S5000x128 .f32) (ws wn : Vec Ideal S128x128 .f32) (b : Vec Ideal S1x128 .f32)
    (i : S100000x128.Idx) (p : Fin 5000) (q : Fin 128)
    (hx : ∀ k : Fin 128, x (ix2 p k) = X (ix2 (i 0) k))
    (hhn : ∀ k : Fin 128, hn (ix2 p k) = HN (ix2 (i 0) k))
    (hws : ∀ k : Fin 128, ws (ix2 k q) = WS (ix2 k (i 1)))
    (hwn : ∀ k : Fin 128, wn (ix2 k q) = WN (ix2 k (i 1)))
    (hb : b (ix2 (0 : Fin 1) q) = B (ix2 (0 : Fin 1) (i 1))) :
    k0_pay1 (F := Ideal) x hn ws wn b (ix2 p q)
      = Cert.Sage.hidden X HN WS WN (fun q => B (ix2 (0 : Fin 1) q)) i := by
  refine (hidden_block x hn ws wn b p q).trans ?_
  show max (Cert.Sage.dense x hn ws wn (fun q => b (ix2 (0 : Fin 1) q)) p q) _
    = max (Cert.Sage.dense X HN WS WN (fun q => B (ix2 (0 : Fin 1) q)) (i 0) (i 1)) _
  unfold Cert.Sage.dense
  simp only [hx, hhn, hws, hwn, hb]

/-- Second layer, the same with no clamp. -/
theorem output_of_blocks (X HN : S100000x128.Idx → EReal) (WS WN : S128x64.Idx → EReal) (B : S1x64.Idx → EReal)
    (x hn : Vec Ideal S5000x128 .f32) (ws wn : Vec Ideal S128x64 .f32) (b : Vec Ideal S1x64 .f32)
    (i : S100000x64.Idx) (p : Fin 5000) (q : Fin 64)
    (hx : ∀ k : Fin 128, x (ix2 p k) = X (ix2 (i 0) k))
    (hhn : ∀ k : Fin 128, hn (ix2 p k) = HN (ix2 (i 0) k))
    (hws : ∀ k : Fin 128, ws (ix2 k q) = WS (ix2 k (i 1)))
    (hwn : ∀ k : Fin 128, wn (ix2 k q) = WN (ix2 k (i 1)))
    (hb : b (ix2 (0 : Fin 1) q) = B (ix2 (0 : Fin 1) (i 1))) :
    k1_pay1 (F := Ideal) x hn ws wn b (ix2 p q)
      = Cert.Sage.output X HN WS WN (fun q => B (ix2 (0 : Fin 1) q)) i := by
  refine (output_block x hn ws wn b p q).trans ?_
  show Cert.Sage.dense x hn ws wn (fun q => b (ix2 (0 : Fin 1) q)) p q
    = Cert.Sage.dense X HN WS WN (fun q => B (ix2 (0 : Fin 1) q)) (i 0) (i 1)
  unfold Cert.Sage.dense
  simp only [hx, hhn, hws, hwn, hb]

end Cert.KernelIdeal.Payload

end
-- ==== Proof.Region.lean ====
/-
  From blocks to arrays: what each of the two layer calls leaves in its output array.

  A call runs its body at twenty grid points. Point `t` stages rows 5000 t … 5000 t + 4999 of the features and of the
  neighbourhood means, the whole weight matrices and the bias row, and writes the body's 5000 result rows back to the
  same rows of the output. So what point `t` writes back is block `t` of ONE function of the whole arrays — the layer —
  and since the twenty row blocks tile the 100000 rows, the output array ends holding that function. Everything is
  stated at arbitrary contents `V` of the buffers when the call is entered.
-/
import proofs.«174485_j15496242004108_1_alg».proof.Proof.Gen.KernelIdeal.Frame
import proofs.«174485_j15496242004108_1_alg».proof.Proof.Payload
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- Where each window's block sits at grid point `t`: the two row-block inputs and the output at row block `t`, the
    weights and the bias at their one block. Decided over the twenty points. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the arrays as the region finds them. -/
theorem flushed0 (c : Dev nD) (t : Fin cfg0.N) :
    (dat0 V c).flushed 5 t = ((cfg0.win 5).blk t).view.read (Elt Ideal)
      (Cert.Sage.hidden (N := 100000) (K := 128) (O := 128) (V c main_arg0) (V c main_v21) (V c main_arg1) (V c main_arg2)
        (fun q => V c main_v22 (ix2 (0 : Fin 1) q))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx0 t
  funext j
  obtain ⟨p, q, rfl⟩ : ∃ (p : Fin 5000) (q : Fin 128), j = ix2 p q := ⟨j 0, j 1, eq_ix2 j⟩
  refine Payload.hidden_of_blocks (V c main_arg0) (V c main_v21) (V c main_arg1) (V c main_arg2) (V c main_v22)
    (iblk0 V c 0 t) (iblk0 V c 1 t) (iblk0 V c 2 t) (iblk0 V c 3 t) (iblk0 V c 4 t)
    (((cfg0.win 5).blk t).view.emb (ix2 p q)) p q (fun k => ?_) (fun k => ?_) (fun k => ?_) (fun k => ?_) ?_
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show V c main_v21 (((cfg0.win 1).blk t).view.emb (ix2 p k)) = _
    refine congrArg (V c main_v21) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · show V c main_arg1 (((cfg0.win 2).blk t).view.emb (ix2 k q)) = _
    refine congrArg (V c main_arg1) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show V c main_arg2 (((cfg0.win 3).blk t).view.emb (ix2 k q)) = _
    refine congrArg (V c main_arg2) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_v22 (((cfg0.win 4).blk t).view.emb (ix2 (0 : Fin 1) q)) = _
    refine congrArg (V c main_v22) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every entry of the output array is written back by the point of its row block: row `r` by point `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by show (i 0).val / 5000 < grid0.N; rw [N_0]; omega
  obtain ⟨-, -, -, -, -, -, -, -, -, -, e50, e51⟩ := idx0 ⟨(i 0).val / 5000, hN⟩
  refine ⟨⟨(i 0).val / 5000, hN⟩, flush0_5 _, ?_⟩
  rw [mem_blk0]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e51]; omega

/-- The output array after the region: the layer of the arrays as the region finds them. -/
theorem final0 (c : Dev nD) :
    (dat0 V c).arrAt 5 cfg0.N
      = Cert.Sage.hidden (N := 100000) (K := 128) (O := 128) (V c main_arg0) (V c main_v21) (V c main_arg1) (V c main_arg2)
          (fun q => V c main_v22 (ix2 (0 : Fin 1) q)) :=
  (dat0 V c).arrAt_eq_of_cover 5 _ (fun t _ => flushed0 V c t) cover0

/-! ## Region 1 -/

/-- Where each window's block sits at grid point `t`: the two row-block inputs and the output at row block `t`, the
    weights and the bias at their one block. Decided over the twenty points. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the arrays as the region finds them. -/
theorem flushed1 (c : Dev nD) (t : Fin cfg1.N) :
    (dat1 V c).flushed 5 t = ((cfg1.win 5).blk t).view.read (Elt Ideal)
      (Cert.Sage.output (N := 100000) (K := 128) (O := 64) (V c main_v23) (V c main_v42) (V c main_arg4) (V c main_arg5)
        (fun q => V c main_v43 (ix2 (0 : Fin 1) q))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx1 t
  funext j
  obtain ⟨p, q, rfl⟩ : ∃ (p : Fin 5000) (q : Fin 64), j = ix2 p q := ⟨j 0, j 1, eq_ix2 j⟩
  refine Payload.output_of_blocks (V c main_v23) (V c main_v42) (V c main_arg4) (V c main_arg5) (V c main_v43)
    (iblk1 V c 0 t) (iblk1 V c 1 t) (iblk1 V c 2 t) (iblk1 V c 3 t) (iblk1 V c 4 t)
    (((cfg1.win 5).blk t).view.emb (ix2 p q)) p q (fun k => ?_) (fun k => ?_) (fun k => ?_) (fun k => ?_) ?_
  · show V c main_v23 (((cfg1.win 0).blk t).view.emb (ix2 p k)) = _
    refine congrArg (V c main_v23) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v42 (((cfg1.win 1).blk t).view.emb (ix2 p k)) = _
    refine congrArg (V c main_v42) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show V c main_arg4 (((cfg1.win 2).blk t).view.emb (ix2 k q)) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 64 + 1 * q.val = win1_5.index t (1 : Fin 2) * 64 + 1 * q.val; omega
  · show V c main_arg5 (((cfg1.win 3).blk t).view.emb (ix2 k q)) = _
    refine congrArg (V c main_arg5) (funext fun a => Fin.ext ?_)
    match a with
    | ⟨0, _⟩ => show win1_3.index t (0 : Fin 2) * 128 + 1 * k.val = k.val; omega
    | ⟨1, _⟩ => show win1_3.index t (1 : Fin 2) * 64 + 1 * q.val = win1_5.index t (1 : Fin 2) * 64 + 1 * q.val; omega
  · show V c main_v43 (((cfg1.win 4).blk t).view.emb (ix2 (0 : Fin 1) q)) = _
    refine congrArg (V c main_v43) (funext fun a => Fin.ext ?_)
    match a with
    | ⟨0, _⟩ => show win1_4.index t (0 : Fin 2) * 1 + 1 * 0 = 0; omega
    | ⟨1, _⟩ => show win1_4.index t (1 : Fin 2) * 64 + 1 * q.val = win1_5.index t (1 : Fin 2) * 64 + 1 * q.val; omega

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v44).slice (win1_5.rect t)).set ↔ _
  rw [View.set_slice_whole, Rect.mem_set_unit]
  exact Iff.rfl

/-- Every entry of the output array is written back by the point of its row block: row `r` by point `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < cfg1.N := by show (i 0).val / 5000 < grid1.N; rw [N_1]; omega
  obtain ⟨-, -, -, -, -, -, -, -, -, -, e50, e51⟩ := idx1 ⟨(i 0).val / 5000, hN⟩
  refine ⟨⟨(i 0).val / 5000, hN⟩, flush1_5 _, ?_⟩
  rw [mem_blk1]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [e51]; omega

/-- The output array after the region: the layer of the arrays as the region finds them. -/
theorem final1 (c : Dev nD) :
    (dat1 V c).arrAt 5 cfg1.N
      = Cert.Sage.output (N := 100000) (K := 128) (O := 64) (V c main_v23) (V c main_v42) (V c main_arg4) (V c main_arg5)
          (fun q => V c main_v43 (ix2 (0 : Fin 1) q)) :=
  (dat1 V c).arrAt_eq_of_cover 5 _ (fun t _ => flushed1 V c t) cover1

end Cert.KernelIdeal.Region

end
-- ==== Proof.RunOut.lean ====
/-
  The whole program's run with its result kept.

  The program is four stretches: host operations, the first layer's call, host operations, the second layer's call.
  Its buffer contents at the four boundaries are a fold from the launch memory: after a host stretch, the stretch's
  operations applied; after a call, the call's arrays at what its write-backs leave and every other buffer as it was.
  Every weakly fair execution terminates without a fault in a state whose unscoped buffers hold the last boundary's
  contents. Read at the argument buffers this is the frame (they end as launched); read at the result buffer it says
  the result is the last boundary's contents there — which is what this module states, beside the frame's conjuncts.
-/
import proofs.«174485_j15496242004108_1_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last boundary's contents and the argument arrays as launched. -/
theorem run_out : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunOut

end
-- ==== Proof.Host.lean ====
/-
  The host side of the kernel program: what the two layer calls find in their operand buffers.

  Before each call the host appends one self loop per node to the edge lists, gathers the source rows of the feature
  array, adds each gathered row into its destination node's accumulator, counts the edges into each node, and divides
  each accumulator row by its count (at least one): the mean of a node's in-neighbours' rows. This chain is the same
  text before both calls and in the reference program; it is carried here as ONE function `meanAgg` of the feature
  array and the two extended edge lists and is never opened. The first call then finds the launch features, their
  means, the launch weights and the bias as a one-row matrix; the second finds the first call's output, its means
  (over the same edge lists), the second layer's weights and bias.
-/
import proofs.«174485_j15496242004108_1_alg».proof.Proof.Gen.KernelIdeal.Frame
import Idealize.ShloMosaic.Lib.StableHlo.Run
import Idealize.ShloMosaic.Lib.Pipeline.Value

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-- An edge list with one self loop per node appended: the given ends, then 0, 1, …, 99999. -/
def withLoops (e : (⟨S1600000, .i32⟩ : BufTy).Contents (Elt F)) : (⟨S1700000, .i32⟩ : BufTy).Contents (Elt F) :=
  concatenate S1700000 0 [⟨S1600000, e⟩, ⟨S100000, (iotaInDim S100000 32 0 : (⟨S100000, .i32⟩ : BufTy).Contents (Elt F))⟩] concatenates_S1600000_S100000_S1700000_d0

/-- The mean of each node's in-neighbours' rows of `x` over the edge lists `src` → `dst` (a negative source counted
    from the end): gathered rows summed per destination, divided by the destination's edge count or by one. -/
def meanAgg (x : (⟨S100000x128, .f32⟩ : BufTy).Contents (Elt F)) (src dst : (⟨S1700000, .i32⟩ : BufTy).Contents (Elt F)) :
    (⟨S100000x128, .f32⟩ : BufTy).Contents (Elt F) :=
  Host.divf
    (Host.scatterAdd scatter_S100000x128_S1700000x1_S1700000x128_1_0_0_1
      (broadcastInDim S100000x128 ![] bcast_S_S100000x128 (constant S_ .f32 0x00000000#32 : (⟨S_, .f32⟩ : BufTy).Contents (Elt F)))
      (broadcastInDim S1700000x1 ![0] bcast_S1700000_S1700000x1_0 dst)
      (Host.gather gather_S100000x128_S1700000x1_S1700000x128_1_0_n_n_0_1_1128 x
        (broadcastInDim S1700000x1 ![0] bcast_S1700000_S1700000x1_0
          (select (cmpi .slt src (broadcastInDim S1700000 ![] bcast_S_S1700000 (constantI S_ 32 0#32 : (⟨S_, .i32⟩ : BufTy).Contents (Elt F))))
            (addi src (broadcastInDim S1700000 ![] bcast_S_S1700000 (constantI S_ 32 100000#32 : (⟨S_, .i32⟩ : BufTy).Contents (Elt F))))
            src))))
    (broadcastInDim S100000x128 ![0, 1] bcast_S100000x1_S100000x128_0_1
      (broadcastInDim S100000x1 ![0] bcast_S100000_S100000x1_0
        (maximumf
          (Host.scatterAdd scatter_S100000_S1700000x1_S1700000_n_0_0_1
            (broadcastInDim S100000 ![] bcast_S_S100000 (constant S_ .f32 0x00000000#32 : (⟨S_, .f32⟩ : BufTy).Contents (Elt F)))
            (broadcastInDim S1700000x1 ![0] bcast_S1700000_S1700000x1_0 dst)
            (broadcastInDim S1700000 ![] bcast_S_S1700000 (constant S_ .f32 0x3F800000#32 : (⟨S_, .f32⟩ : BufTy).Contents (Elt F))))
          (broadcastInDim S100000 ![] bcast_S_S100000 (constant S_ .f32 0x3F800000#32 : (⟨S_, .f32⟩ : BufTy).Contents (Elt F))))))

variable (m : (ℓ : Loc nD τ sig) → Buf (Elt F) ℓ) (ρ : Dev nD → PrngReg)

/-! ## What the first call finds -/

theorem V1_arg0 (c : Dev nD) : V1 m ρ c main_arg0 = m ((c.tc : Thread nD τ).loc main_arg0) := by
  show StableHlo.after hostOps0 (W0 m ρ c) (Proc.devRef .tc main_arg0) = _
  after_results_simp <;> rfl
theorem V1_arg1 (c : Dev nD) : V1 m ρ c main_arg1 = m ((c.tc : Thread nD τ).loc main_arg1) := by
  show StableHlo.after hostOps0 (W0 m ρ c) (Proc.devRef .tc main_arg1) = _
  after_results_simp <;> rfl
theorem V1_arg2 (c : Dev nD) : V1 m ρ c main_arg2 = m ((c.tc : Thread nD τ).loc main_arg2) := by
  show StableHlo.after hostOps0 (W0 m ρ c) (Proc.devRef .tc main_arg2) = _
  after_results_simp <;> rfl
set_option maxHeartbeats 4000000 in
theorem V1_v21 (c : Dev nD) : V1 m ρ c main_v21
    = meanAgg (m ((c.tc : Thread nD τ).loc main_arg0)) (withLoops (m ((c.tc : Thread nD τ).loc main_arg7))) (withLoops (m ((c.tc : Thread nD τ).loc main_arg8))) := by
  show StableHlo.after hostOps0 (W0 m ρ c) (Proc.devRef .tc main_v21) = _
  after_results_simp <;> rfl
theorem V1_v22 (c : Dev nD) : V1 m ρ c main_v22
    = shapeCast S1x128 (m ((c.tc : Thread nD τ).loc main_arg3)) shapeCasts_S128_S1x128 := by
  show StableHlo.after hostOps0 (W0 m ρ c) (Proc.devRef .tc main_v22) = _
  after_results_simp <;> rfl

end Cert.KernelIdeal.Host

end
-- ==== Proof.KernelValue.lean ====
/-
  The kernel program's result: the two layers of the launch arrays, the aggregation chain between them.

  The result buffer is the second call's output array, which holds the second layer of what that call finds: the
  first call's output, its neighbourhood means over the extended edge lists, the second weights and bias. The first
  call's output holds the first layer of the launch features, their means, the first weights and bias. No host
  operation between or before the calls writes an argument, the extended edge lists, or the first call's output, so
  each operand is read back through the boundaries to the launch memory.
-/
import proofs.«174485_j15496242004108_1_alg».proof.Proof.Region
import proofs.«174485_j15496242004108_1_alg».proof.Proof.RunOut
import proofs.«174485_j15496242004108_1_alg».proof.Proof.Host
import Idealize.ShloMosaic.Lib.ValueLayout

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen
open Cert.KernelIdeal.Host (meanAgg withLoops)

variable (m : (ℓ : Loc nD τ sig) → Buf (Elt Ideal) ℓ) (ρ : Dev nD → PrngReg)

/-- The extended edge lists of the launch memory. -/
abbrev srcs (c : Dev nD) := withLoops (F := Ideal) (m ((c.tc : Thread nD τ).loc main_arg7))
abbrev dsts (c : Dev nD) := withLoops (F := Ideal) (m ((c.tc : Thread nD τ).loc main_arg8))

/-- The hidden features of the launch arrays. -/
def hiddenOf (c : Dev nD) : S100000x128.Idx → EReal :=
  Cert.Sage.hidden (N := 100000) (K := 128) (O := 128) (m ((c.tc : Thread nD τ).loc main_arg0))
    (meanAgg (F := Ideal) (m ((c.tc : Thread nD τ).loc main_arg0)) (srcs m c) (dsts m c))
    (m ((c.tc : Thread nD τ).loc main_arg1)) (m ((c.tc : Thread nD τ).loc main_arg2))
    (fun q => m ((c.tc : Thread nD τ).loc main_arg3) (ix1 q))

/-- The result of the launch arrays. -/
def resultOf (c : Dev nD) : S100000x64.Idx → EReal :=
  Cert.Sage.output (N := 100000) (K := 128) (O := 64) (hiddenOf m c)
    (meanAgg (F := Ideal) (hiddenOf m c) (srcs m c) (dsts m c))
    (m ((c.tc : Thread nD τ).loc main_arg4)) (m ((c.tc : Thread nD τ).loc main_arg5))
    (fun q => m ((c.tc : Thread nD τ).loc main_arg6) (ix1 q))

/-! ## After the first call -/

/-- The first call's output array holds the hidden features. -/
theorem hidden_out (c : Dev nD) : W2 m ρ c (Proc.devRef .tc main_v23) = hiddenOf m c := by
  refine (W2_arr m ρ c 5).trans ?_
  rw [Region.final0 (V1 m ρ) c, Host.V1_arg0, Host.V1_arg1, Host.V1_arg2, Host.V1_v21, Host.V1_v22]
  unfold hiddenOf
  congr 1
  funext q
  exact shapeCast_a_1a_apply _ _ 0 q

/-- The extended edge lists and the second layer's arguments are not among the first call's arrays and no host
    operation before it writes them. -/
theorem W2_v1 (c : Dev nD) : W2 m ρ c (Proc.devRef .tc main_v1) = srcs m c := by
  refine (W2_of_ne m ρ c main_v1 (by decide)).trans ?_
  show StableHlo.after hostOps0 (W0 m ρ c) (Proc.devRef .tc main_v1) = _
  after_results_simp <;> rfl
theorem W2_v2 (c : Dev nD) : W2 m ρ c (Proc.devRef .tc main_v2) = dsts m c := by
  refine (W2_of_ne m ρ c main_v2 (by decide)).trans ?_
  show StableHlo.after hostOps0 (W0 m ρ c) (Proc.devRef .tc main_v2) = _
  after_results_simp <;> rfl
theorem W2_arg4 (c : Dev nD) : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  after_results_simp <;> rfl
theorem W2_arg5 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results_simp <;> rfl
theorem W2_arg6 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results_simp <;> rfl

/-! ## What the second call finds: the host operations between the calls, from any contents `W` -/

section Between
variable (W : Valuation τ sig (Elt Ideal))

theorem between_v23 : StableHlo.after hostOps1 W (Proc.devRef .tc main_v23) = W (Proc.devRef .tc main_v23) := by
  after_results_simp <;> rfl
theorem between_arg4 : StableHlo.after hostOps1 W (Proc.devRef .tc main_arg4) = W (Proc.devRef .tc main_arg4) := by
  after_results_simp <;> rfl
theorem between_arg5 : StableHlo.after hostOps1 W (Proc.devRef .tc main_arg5) = W (Proc.devRef .tc main_arg5) := by
  after_results_simp <;> rfl
set_option maxHeartbeats 4000000 in
theorem between_v42 : StableHlo.after hostOps1 W (Proc.devRef .tc main_v42)
    = meanAgg (F := Ideal) (W (Proc.devRef .tc main_v23)) (W (Proc.devRef .tc main_v1)) (W (Proc.devRef .tc main_v2)) := by
  after_results_simp <;> rfl
theorem between_v43 : StableHlo.after hostOps1 W (Proc.devRef .tc main_v43)
    = shapeCast S1x64 (W (Proc.devRef .tc main_arg6)) shapeCasts_S64_S1x64 := by
  after_results_simp <;> rfl

end Between

/-! ## After the second call -/

/-- The result buffer at the last boundary holds the result of the launch arrays. -/
theorem result_out (c : Dev nD) : W4 m ρ c (Proc.devRef .tc main_v44) = resultOf m c := by
  refine (W4_arr m ρ c 5).trans ?_
  rw [Region.final1 (V3 m ρ) c]
  show Cert.Sage.output (N := 100000) (K := 128) (O := 64)
      (StableHlo.after hostOps1 (W2 m ρ c) (Proc.devRef .tc main_v23))
      (StableHlo.after hostOps1 (W2 m ρ c) (Proc.devRef .tc main_v42))
      (StableHlo.after hostOps1 (W2 m ρ c) (Proc.devRef .tc main_arg4))
      (StableHlo.after hostOps1 (W2 m ρ c) (Proc.devRef .tc main_arg5))
      (fun q => StableHlo.after hostOps1 (W2 m ρ c) (Proc.devRef .tc main_v43) (ix2 (0 : Fin 1) q)) = _
  rw [between_v23, between_v42, between_arg4, between_arg5, between_v43,
    hidden_out, W2_v1, W2_v2, W2_arg4, W2_arg5, W2_arg6]
  unfold resultOf
  congr 1
  funext q
  exact shapeCast_a_1a_apply _ _ 0 q

/-- Every weakly fair execution of the kernel program terminates with the result of the launch arrays in its result
    buffer and the arguments as launched. -/
theorem run : θ_run defs (onTc (τ := τ) (main (F := Ideal))) ⟨m, fun _ => 0, ρ⟩ (fun r => ∀ c : Dev nD,
      r.2.mem ((c.tc : Thread nD τ).loc main_v44) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_out m ρ c), (h c).2⟩) (Cert.KernelIdeal.RunOut.run_out m ρ)

end Cert.KernelIdeal.KernelValue

end
-- ==== Proof.RefValue.lean ====
/-
  The reference program's result is the same two layers over the same aggregation.

  The reference computes, for each layer, the product of the features with the self weights, the product of the
  neighbourhood means with the neighbour weights, their sum, plus the bias broadcast over the rows (and the clamp at
  zero after the first layer). Read at an entry, each product is the sum over the contracted axis of entry times
  entry, so the layer's value at (p, q) is the affine part of the specification, in the same grouping. The means are
  the aggregation chain applied to the layer's input, carried as one function and never opened.
-/
import proofs.«174485_j15496242004108_1_alg».proof.Proof.Gen.ReferenceIdeal.Read
import proofs.«174485_j15496242004108_1_alg».proof.Proof.Sage
import proofs.«174485_j15496242004108_1_alg».proof.Proof.Host

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open Cert.KernelIdeal.Host (meanAgg withLoops)

/-- The first layer's neighbourhood means are the aggregation chain of the launch features over the extended edge
    lists: the two programs spell the chain with the same operations. -/
theorem means1 (x0 : (⟨S100000x128, .f32⟩ : BufTy).Contents (Elt Ideal)) (x7 x8 : (⟨S1600000, .i32⟩ : BufTy).Contents (Elt Ideal)) :
    val_main_v21 (F := Ideal) x0 x7 x8 = meanAgg (F := Ideal) x0 (withLoops x7) (withLoops x8) := rfl

/-- The second layer's means are the same chain of the hidden features. -/
theorem means2 (x0 : (⟨S100000x128, .f32⟩ : BufTy).Contents (Elt Ideal)) (x1 x2 : (⟨S128x128, .f32⟩ : BufTy).Contents (Elt Ideal))
    (x3 : (⟨S128, .f32⟩ : BufTy).Contents (Elt Ideal)) (x7 x8 : (⟨S1600000, .i32⟩ : BufTy).Contents (Elt Ideal)) :
    val_main_v47 (F := Ideal) x0 x1 x2 x3 x7 x8
      = meanAgg (F := Ideal) (val_main_v28 (F := Ideal) x0 x1 x2 x3 x7 x8) (withLoops x7) (withLoops x8) := rfl

/-- The hidden features: the first layer of the launch features and their means. -/
theorem hidden_eq (x0 : (⟨S100000x128, .f32⟩ : BufTy).Contents (Elt Ideal)) (x1 x2 : (⟨S128x128, .f32⟩ : BufTy).Contents (Elt Ideal))
    (x3 : (⟨S128, .f32⟩ : BufTy).Contents (Elt Ideal)) (x7 x8 : (⟨S1600000, .i32⟩ : BufTy).Contents (Elt Ideal)) :
    val_main_v28 (F := Ideal) x0 x1 x2 x3 x7 x8
      = Cert.Sage.hidden (N := 100000) (K := 128) (O := 128) x0 (val_main_v21 (F := Ideal) x0 x7 x8) x1 x2 (fun q => x3 (ix1 q)) := by
  funext j
  rw [val_main_v28_apply, val_main_v27_apply, val_main_v24_apply, val_main_v22_apply, val_main_v23_apply,
    val_main_v26_apply, val_main_v25_apply, val_main_call0_v0_apply, val_main_call0_cst_apply]
  generalize val_main_v21 (F := Ideal) x0 x7 x8 = hn
  show max ((∑ k : Fin 128, _ * _) + (∑ k : Fin 128, _ * _) + _) _ = max ((∑ k : Fin 128, _ * _) + (∑ k : Fin 128, _ * _) + _) _
  refine congrArg₂ max (congrArg₂ (· + ·) (congrArg₂ (· + ·) (Finset.sum_congr rfl fun k _ => ?_) (Finset.sum_congr rfl fun k _ => ?_)) ?_) rfl
  · exact congrArg₂ (· * ·)
      (congrArg x0 (funext fun a => Fin.ext (by match a with | ⟨0, _⟩ => rfl | ⟨1, _⟩ => rfl)))
      (congrArg x1 (funext fun a => Fin.ext (by match a with | ⟨0, _⟩ => rfl | ⟨1, _⟩ => rfl)))
  · exact congrArg₂ (· * ·)
      (congrArg hn (funext fun a => Fin.ext (by match a with | ⟨0, _⟩ => rfl | ⟨1, _⟩ => rfl)))
      (congrArg x2 (funext fun a => Fin.ext (by match a with | ⟨0, _⟩ => rfl | ⟨1, _⟩ => rfl)))
  · exact congrArg x3 (funext fun a => Fin.ext (by match a with | ⟨0, _⟩ => rfl))

/-- The result: the second layer of the hidden features and their means. -/
theorem output_eq (x0 : (⟨S100000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S128x64, .f32⟩ : BufTy).Contents (Elt Ideal))
    (x6 : (⟨S64, .f32⟩ : BufTy).Contents (Elt Ideal)) (x7 x8 : (⟨S1600000, .i32⟩ : BufTy).Contents (Elt Ideal)) :
    val_main_v53 (F := Ideal) x0 x1 x2 x3 x4 x5 x6 x7 x8
      = Cert.Sage.output (N := 100000) (K := 128) (O := 64) (val_main_v28 (F := Ideal) x0 x1 x2 x3 x7 x8)
          (val_main_v47 (F := Ideal) x0 x1 x2 x3 x7 x8) x4 x5 (fun q => x6 (ix1 q)) := by
  funext j
  rw [val_main_v53_apply, val_main_v50_apply, val_main_v48_apply, val_main_v49_apply, val_main_v52_apply, val_main_v51_apply]
  generalize val_main_v28 (F := Ideal) x0 x1 x2 x3 x7 x8 = h
  generalize val_main_v47 (F := Ideal) x0 x1 x2 x3 x7 x8 = hn
  show (∑ k : Fin 128, _ * _) + (∑ k : Fin 128, _ * _) + _ = (∑ k : Fin 128, _ * _) + (∑ k : Fin 128, _ * _) + _
  refine congrArg₂ (· + ·) (congrArg₂ (· + ·) (Finset.sum_congr rfl fun k _ => ?_) (Finset.sum_congr rfl fun k _ => ?_)) ?_
  · exact congrArg₂ (· * ·)
      (congrArg h (funext fun a => Fin.ext (by match a with | ⟨0, _⟩ => rfl | ⟨1, _⟩ => rfl)))
      (congrArg x4 (funext fun a => Fin.ext (by match a with | ⟨0, _⟩ => rfl | ⟨1, _⟩ => rfl)))
  · exact congrArg₂ (· * ·)
      (congrArg hn (funext fun a => Fin.ext (by match a with | ⟨0, _⟩ => rfl | ⟨1, _⟩ => rfl)))
      (congrArg x5 (funext fun a => Fin.ext (by match a with | ⟨0, _⟩ => rfl | ⟨1, _⟩ => rfl)))
  · exact congrArg x6 (funext fun a => Fin.ext (by match a with | ⟨0, _⟩ => rfl))

/-- The reference's result as the two layers of the launch arrays, the aggregation chain between them. -/
theorem result_eq (x0 : (⟨S100000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S128x64, .f32⟩ : BufTy).Contents (Elt Ideal))
    (x6 : (⟨S64, .f32⟩ : BufTy).Contents (Elt Ideal)) (x7 x8 : (⟨S1600000, .i32⟩ : BufTy).Contents (Elt Ideal)) :
    val_main_v53 (F := Ideal) x0 x1 x2 x3 x4 x5 x6 x7 x8
      = Cert.Sage.output (N := 100000) (K := 128) (O := 64)
          (Cert.Sage.hidden (N := 100000) (K := 128) (O := 128) x0 (meanAgg (F := Ideal) x0 (withLoops x7) (withLoops x8)) x1 x2 (fun q => x3 (ix1 q)))
          (meanAgg (F := Ideal)
            (Cert.Sage.hidden (N := 100000) (K := 128) (O := 128) x0 (meanAgg (F := Ideal) x0 (withLoops x7) (withLoops x8)) x1 x2 (fun q => x3 (ix1 q)))
            (withLoops x7) (withLoops x8))
          x4 x5 (fun q => x6 (ix1 q)) := by
  rw [output_eq, means2, hidden_eq, means1]

end Cert.ReferenceIdeal.RefValue

end
-- ==== Proof.lean ====
/-
  A two-layer mean-aggregation graph network, computed with a blocked layer kernel, against its plain reference.

  Both programs extend the edge lists with one self loop per node and, for each of the two layers, average every
  node's in-neighbours' feature rows (one shared chain of host operations) and apply the layer:

      out (p, q) = (sum_k x (p, k) ws (k, q) + sum_k mean (p, k) wn (k, q)) + b q,

  clamped at zero after the first layer. The kernel program computes a layer 5000 rows at a time, its operands
  narrowed to a shorter float format before the two matrix products; the reference computes it with two whole matrix
  products. Over the extended reals a format change is the identity and a matrix product into zero is the plain sum,
  so each block the kernel writes back is a block of the reference's layer, in the same grouping of the same sums:
  no law of arithmetic, and so no finiteness of the inputs, is used. The aggregation chain is the same text in both
  programs and is carried as one function.

  Modules: `Sage` (the layer as a function of whole arrays), `Payload` (what one kernel call stores, entry by entry),
  `Region` (from the blocks to each call's output array), `Host` (the aggregation chain and what the first call
  finds), `RunOut` (the program's run with its result kept), `KernelValue` (the kernel program's result),
  `RefValue` (the reference's result). The three frames are the generated ones; the idealization rewrote nothing.
-/
import proofs.«174485_j15496242004108_1_alg».proof.Defs
import proofs.«174485_j15496242004108_1_alg».proof.Proof.Gen.Kernel
import proofs.«174485_j15496242004108_1_alg».proof.Proof.Gen.Kernel.Skeleton
import proofs.«174485_j15496242004108_1_alg».proof.Proof.Gen.Kernel.Launch
import proofs.«174485_j15496242004108_1_alg».proof.Proof.Gen.Kernel.Points
import proofs.«174485_j15496242004108_1_alg».proof.Proof.Gen.Kernel.Frame
import proofs.«174485_j15496242004108_1_alg».proof.Proof.Gen.KernelIdeal
import proofs.«174485_j15496242004108_1_alg».proof.Proof.Gen.KernelIdeal.Skeleton
import proofs.«174485_j15496242004108_1_alg».proof.Proof.Gen.KernelIdeal.Launch
import proofs.«174485_j15496242004108_1_alg».proof.Proof.Gen.KernelIdeal.Points
import proofs.«174485_j15496242004108_1_alg».proof.Proof.Gen.KernelIdeal.Frame
import proofs.«174485_j15496242004108_1_alg».proof.Proof.Gen.ReferenceIdeal
import proofs.«174485_j15496242004108_1_alg».proof.Proof.Gen.ReferenceIdeal.Run
import proofs.«174485_j15496242004108_1_alg».proof.Proof.Gen.ReferenceIdeal.Read
import proofs.«174485_j15496242004108_1_alg».proof.Proof.Gen.Pre_finite_inputs
import proofs.«174485_j15496242004108_1_alg».proof.Proof.KernelValue
import proofs.«174485_j15496242004108_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the two layers of the launch arrays in their
    result buffers. -/
theorem algebraic : Cert.algebraic_KernelIdeal_ReferenceIdeal := by
  intro m ρ m' ρ' _ hagree
  refine ⟨fun c => Cert.KernelIdeal.KernelValue.resultOf m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
